-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S256x16 : Shape := ⟨2, ![256, 16]⟩
abbrev S1048576 : Shape := ⟨1, ![1048576]⟩
abbrev S16 : Shape := ⟨1, ![16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : FVec F S256x16 .f32) (main_arg2 : IVec S1048576 32) (main_arg3 : FVec F S16 .f32) (main_arg4 : IVec S1048576 32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S256x16 : Shape := ⟨2, ![256, 16]⟩
abbrev S1048576 : Shape := ⟨1, ![1048576]⟩
abbrev S16 : Shape := ⟨1, ![16]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 34
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S256x16, .f32⟩
  | .hbm, ⟨2, _⟩ => ⟨S1048576, .i32⟩
  | .hbm, ⟨3, _⟩ => ⟨S16, .f32⟩
  | .hbm, ⟨4, _⟩ => ⟨S1048576, .i32⟩
  | .hbm, ⟨5, _⟩ => ⟨S4096, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x16, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576, .f32⟩
  | .hbm, ⟨24, _⟩ => ⟨S1048576x1, .f32⟩
  | .hbm, ⟨25, _⟩ => ⟨S1048576x16, .f32⟩
  | .hbm, ⟨26, _⟩ => ⟨S1048576x16, .f32⟩
  | .hbm, ⟨27, _⟩ => ⟨S4096x4096, .f32⟩
  | .hbm, ⟨28, _⟩ => ⟨S8192x4096, .f32⟩
  | .hbm, ⟨29, _⟩ => ⟨S8192x4096, .bf16⟩
  | .hbm, ⟨30, _⟩ => ⟨S4096x4096, .bf16⟩
  | .hbm, ⟨31, _⟩ => ⟨S1x4096, .f32⟩
  | .hbm, ⟨32, _⟩ => ⟨S8192x4096, .f32⟩
  | .hbm, ⟨33, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x16_0_1 : S1048576x1.BroadcastsInDim S1048576x16 (![0, 1] : Fin 2 → Fin S1048576x16.rank)
  shapeCasts_S1048576x16_S4096x4096 : S1048576x16.ShapeCasts S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x16_S1048576x1_S1048576x16_1_0_n_n_0_1_116_wf : GatherDims.WF S256x16 S1048576x1 S1048576x16 [1] [0] [] [0] [] 1 ![1, 16]
  gather_S16_S1048576x1_S1048576_n_0_n_n_0_1_1_wf : GatherDims.WF S16 S1048576x1 S1048576 [] [0] [] [0] [] 1 ![1]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256x16_S1048576x1_S1048576x16_1_0_n_n_0_1_116 : GatherDims S256x16 S1048576x1 S1048576x16 where
  offsetDims := [1]
  collapsedSliceDims := [0]
  operandBatchingDims := []
  startIndicesBatchingDims := []
  startIndexMap := [0]
  indexVectorDim := 1
  sliceSizes := ![1, 16]
  wf := gather_S256x16_S1048576x1_S1048576x16_1_0_n_n_0_1_116_wf
def gather_S16_S1048576x1_S1048576_n_0_n_n_0_1_1 : GatherDims S16 S1048576x1 S1048576 where
  offsetDims := []
  collapsedSliceDims := [0]
  operandBatchingDims := []
  startIndicesBatchingDims := []
  startIndexMap := [0]
  indexVectorDim := 1
  sliceSizes := ![1]
  wf := gather_S16_S1048576x1_S1048576_n_0_n_n_0_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v19) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S256x16 : Shape := ⟨2, ![256, 16]⟩
abbrev S1048576 : Shape := ⟨1, ![1048576]⟩
abbrev S16 : Shape := ⟨1, ![16]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S4096x4096 : Shape := ⟨2, ![4096, 4096]⟩
abbrev S1x1x4096 : Shape := ⟨3, ![1, 1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S256x16, .f32⟩
  | .hbm, ⟨2, _⟩ => ⟨S1048576, .i32⟩
  | .hbm, ⟨3, _⟩ => ⟨S16, .f32⟩
  | .hbm, ⟨4, _⟩ => ⟨S1048576, .i32⟩
  | .hbm, ⟨5, _⟩ => ⟨S4096, .f32⟩
  | .hbm, ⟨6, _⟩ => ⟨S_, .i32⟩
  | .hbm, ⟨7, _⟩ => ⟨S1048576, .i32⟩
  | .hbm, ⟨8, _⟩ => ⟨S1048576, .i1⟩
  | .hbm, ⟨9, _⟩ => ⟨S_, .i32⟩
  | .hbm, ⟨10, _⟩ => ⟨S1048576, .i32⟩
  | .hbm, ⟨11, _⟩ => ⟨S1048576, .i32⟩
  | .hbm, ⟨12, _⟩ => ⟨S1048576, .i32⟩
  | .hbm, ⟨13, _⟩ => ⟨S1048576x1, .i32⟩
  | .hbm, ⟨14, _⟩ => ⟨S1048576x16, .f32⟩
  | .hbm, ⟨15, _⟩ => ⟨S_, .i32⟩
  | .hbm, ⟨16, _⟩ => ⟨S1048576, .i32⟩
  | .hbm, ⟨17, _⟩ => ⟨S1048576, .i1⟩
  | .hbm, ⟨18, _⟩ => ⟨S_, .i32⟩
  | .hbm, ⟨19, _⟩ => ⟨S1048576, .i32⟩
  | .hbm, ⟨20, _⟩ => ⟨S1048576, .i32⟩
  | .hbm, ⟨21, _⟩ => ⟨S1048576, .i32⟩
  | .hbm, ⟨22, _⟩ => ⟨S1048576x1, .i32⟩
  | .hbm, ⟨23, _⟩ => ⟨S1048576, .f32⟩
  | .hbm, ⟨24, _⟩ => ⟨S1048576x1, .f32⟩
  | .hbm, ⟨25, _⟩ => ⟨S1048576x16, .f32⟩
  | .hbm, ⟨26, _⟩ => ⟨S1048576x16, .f32⟩
  | .hbm, ⟨27, _⟩ => ⟨S4096x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x16_0_1 : S1048576x1.BroadcastsInDim S1048576x16 (![0, 1] : Fin 2 → Fin S1048576x16.rank)
  shapeCasts_S1048576x16_S4096x4096 : S1048576x16.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S256x16_S1048576x1_S1048576x16_1_0_n_n_0_1_116_wf : GatherDims.WF S256x16 S1048576x1 S1048576x16 [1] [0] [] [0] [] 1 ![1, 16]
  gather_S16_S1048576x1_S1048576_n_0_n_n_0_1_1_wf : GatherDims.WF S16 S1048576x1 S1048576 [] [0] [] [0] [] 1 ![1]
  dot_S4x2048x4096_S4096x4096_S4x2048x4096_2_1_01_0_n_n_wf : DotDims.WF S4x2048x4096 S4096x4096 S4x2048x4096 [2] [1] [0, 1] [0] [] []

variable [Facts₀]

def gather_S256x16_S1048576x1_S1048576x16_1_0_n_n_0_1_116 : GatherDims S256x16 S1048576x1 S1048576x16 where
  offsetDims := [1]
  collapsedSliceDims := [0]
  operandBatchingDims := []
  startIndicesBatchingDims := []
  startIndexMap := [0]
  indexVectorDim := 1
  sliceSizes := ![1, 16]
  wf := gather_S256x16_S1048576x1_S1048576x16_1_0_n_n_0_1_116_wf
def gather_S16_S1048576x1_S1048576_n_0_n_n_0_1_1 : GatherDims S16 S1048576x1 S1048576 where
  offsetDims := []
  collapsedSliceDims := [0]
  operandBatchingDims := []
  startIndicesBatchingDims := []
  startIndexMap := [0]
  indexVectorDim := 1
  sliceSizes := ![1]
  wf := gather_S16_S1048576x1_S1048576_n_0_n_n_0_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Pieces.lean ====
/-
  What each control case of the body leaves behind, as one value of the blocks it loaded (at any float instance).

  The grid's last axis walks the four K-blocks of one output tile. The body has three cases:
    * first K-block: the scratch is reset to zero, then the block product is added to it;
    * a middle K-block: the block product is added to what the scratch held;
    * last K-block: the same, and then the scratch plus the bias row is stored to the output block.
  Every store covers the whole 1024 × 1024 buffer through the zero-offset rectangle, so what a buffer holds after the
  body is the payload of the last store into it, with each load read as the whole buffer it loads.
-/
import proofs.«162434_j6751688589355_1_alg».proof.Proof.Gen.KernelIdeal.Frame
import Idealize.ShloMosaic.Lib.Pipeline.Value
import Idealize.ShloMosaic.Lib.Tactic

noncomputable section

namespace Cert.KernelIdeal.Body

open Idealize.ShloMosaic Idealize.ShloMosaic.TcCoe Idealize.SL.Sem Cert.KernelIdeal Cert.KernelIdeal.Gen

variable {F : FTy → Type} [FloatOps F]

/-- The stores' and loads' offsets are all zero. -/
theorem offsets_zero : (![0, 0] : Fin 2 → Nat) = fun _ => 0 := funext fun a => by fin_cases a <;> rfl

/-- A middle K-block leaves the scratch at what it held plus the block product. -/
theorem scratch_B (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero offsets_zero]
  simp only [View.readAt_eq_ld, harg3.read_unread, harg4.read_unread, harg7.read_unread,
    View.ld_unit_zero (S := S1024x1024) offsets_zero]

/-- The first K-block leaves the scratch at zero plus the block product: the reset is read back before the sum. -/
theorem scratch_A (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) offsets_zero, View.readCov_unit_zero (S := S1024x1024) _ offsets_zero]
  simp only [View.readAt_eq_ld, harg3.read_unread, harg4.read_unread,
    View.ld_unit_zero (S := S1024x1024) offsets_zero]

/-- The last K-block leaves the scratch as a middle one does, -/
theorem scratch_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero offsets_zero]
  simp only [View.readAt_eq_ld, harg3.read_unread, harg4.read_unread, harg7.read_unread,
    View.ld_unit_zero (S := S1024x1024) offsets_zero]

/-- and the output block at that scratch plus the bias row. -/
theorem out_C (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero offsets_zero, View.readCov_unit_zero (S := S1024x1024) _ offsets_zero]
  simp only [View.readAt_eq_ld, harg3.read_unread, harg4.read_unread, harg5.read_unread, harg7.read_unread,
    View.ld_unit_zero (S := S1024x1024) offsets_zero, View.ld_unit_zero (S := S1x1024) offsets_zero]

end Cert.KernelIdeal.Body

end
-- ==== Proof.Recurrence.lean ====
/-
  The accumulation across the grid, as a recurrence (at any float instance).

  The grid is 8 × 4 × 4, its last axis the K-block, walked fastest: point `t` has K-block `t mod 4`. What the scratch
  holds after point `t` is
    * at the first K-block of a tile (`t mod 4 = 0`): the accumulation payload over a zeroed scratch and the point's
      two input blocks;
    * otherwise: the accumulation payload over what the point before left and the point's two input blocks;
  and at the last K-block (`t mod 4 = 3`) the output tile is the closing payload of that scratch and the bias block.
-/
import proofs.«162434_j6751688589355_1_alg».proof.Proof.Pieces

noncomputable section

namespace Cert.KernelIdeal.Body

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The scratch after the first K-block of a tile. -/
theorem scratch_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact scratch_A c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- The scratch after a later K-block, from what the point before left. -/
theorem scratch_later (c : Dev nD) (t : Fin cfg0.N) (h0 : ¬t.val % 4 = 0) :
    (outsAt0 m c t.val t.isLt).2
      = k0_pay2 (outsAt0 m c (t.val - 1) (Nat.lt_of_le_of_lt (Nat.sub_le _ _) t.isLt)).2 (iblk m c 0 t) (iblk m c 1 t) := by
  by_cases h1 : t.val % 4 = 3
  · rw [outsAt0_C m c t h0 h1]
    dsimp only
    exact scratch_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact scratch_B c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The output tile after the last K-block. -/
theorem tile_last (c : Dev nD) (t : Fin cfg0.N) (h1 : t.val % 4 = 3) :
    (outsAt0 m c t.val t.isLt).1
      = k0_pay3 (k0_pay2 (outsAt0 m c (t.val - 1) (Nat.lt_of_le_of_lt (Nat.sub_le _ _) t.isLt)).2 (iblk m c 0 t) (iblk m c 1 t)) (iblk m c 2 t) := by
  have h0 : ¬t.val % 4 = 0 := by omega
  rw [outsAt0_C m c t h0 h1]
  dsimp only
  exact out_C c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end Cert.KernelIdeal.Body

end
-- ==== Proof.SumBlocks.lean ====
/-
  Sums cut into consecutive blocks, in any additive commutative monoid (the extended reals are one: their
  addition is commutative and associative, infinities included, so nothing here asks for finiteness).

  A sum over the first `n + b` naturals is the sum over the first `n` plus the sum over the next `b`; so a running
  sum over `k` whole blocks of length `b`, extended by block `k`, is the running sum over `k + 1` blocks. This is
  the only law that separates a dot product accumulated block by block from the same dot product taken whole.
-/
import Mathlib.Algebra.BigOperators.Fin
import Mathlib.Algebra.BigOperators.Intervals

namespace Cert.SumBlocks

variable {M : Type*} [AddCommMonoid M]

/-- Block `k` (of length `b`) appended to the first `k` blocks gives the first `k + 1` blocks. -/
theorem sum_range_succ_block (f : ℕ → M) (b k : ℕ) :
    ∑ l ∈ Finset.range (k * b), f l + ∑ j : Fin b, f (k * b + j.val) = ∑ l ∈ Finset.range ((k + 1) * b), f l := by
  rw [Nat.succ_mul, Finset.sum_range_add, Fin.sum_univ_eq_sum_range (fun j => f (k * b + j))]

/-- The first block alone: nothing before it. -/
theorem sum_range_first_block (f : ℕ → M) (b : ℕ) :
    (0 : M) + ∑ j : Fin b, f (0 * b + j.val) = ∑ l ∈ Finset.range ((0 + 1) * b), f l := by
  rw [← sum_range_succ_block f b 0, Nat.zero_mul, Finset.range_zero, Finset.sum_empty]

/-- A sum over `Fin n` of a function of the underlying natural is the sum over the first `n` naturals. -/
theorem sum_fin_eq_range (f : ℕ → M) (n : ℕ) : ∑ l : Fin n, f l.val = ∑ l ∈ Finset.range n, f l :=
  Fin.sum_univ_eq_sum_range f n

end Cert.SumBlocks
-- ==== Proof.DotSpec.lean ====
/-
  The specification both programs meet, over the extended reals, with no program in sight.

  For a left matrix `A` (rows × K), a right matrix `B` (columns × K, so it is read transposed) and a bias row `C`,
  the result at row `r` and column `o` is the dot product of row `r` of `A` with row `o` of `B`, plus `C` at `o`:
      result[r, o] = Σ_l A[r, l] · B[o, l] + C[0, o].

  To follow a dot product that is accumulated K-block by K-block, the arrays are read at natural-number coordinates
  (zero outside the array, which no sum below ever reaches) and the partial dot product over the first `n` columns
  is a sum over `range n`; appending one block of columns to `k` whole blocks gives `k + 1` whole blocks. Only the
  commutative-monoid laws of addition are used, so infinite entries need no special care.
-/
import Idealize.ShloMosaic.Lib.ValueIdx
import proofs.«162434_j6751688589355_1_alg».proof.Proof.SumBlocks

noncomputable section

namespace Cert.DotSpec

open Idealize.ShloMosaic Idealize.ShloMosaic.ValueIdx

/-- A two-axis array read at natural-number coordinates: its entry inside the array, zero outside. -/
def at2 {n0 n1 : ℕ} (X : (⟨2, ![n0, n1]⟩ : Shape).Idx → EReal) (r l : ℕ) : EReal :=
  if h : r < n0 ∧ l < n1 then X (ix2 ⟨r, h.1⟩ ⟨l, h.2⟩) else 0

/-- At the coordinates of an index it is the entry there. -/
theorem at2_val {n0 n1 : ℕ} (X : (⟨2, ![n0, n1]⟩ : Shape).Idx → EReal) (p : Fin n0) (q : Fin n1) :
    at2 X p.val q.val = X (ix2 p q) := by
  unfold at2
  rw [dif_pos ⟨p.isLt, q.isLt⟩]

/-- An entry is the reading at its index's coordinates, however those are written. -/
theorem at2_of_idx {n0 n1 : ℕ} (X : (⟨2, ![n0, n1]⟩ : Shape).Idx → EReal) (y : (⟨2, ![n0, n1]⟩ : Shape).Idx) (r l : ℕ)
    (h0 : (y 0).val = r) (h1 : (y 1).val = l) : X y = at2 X r l := by
  subst h0 h1
  unfold at2
  rw [dif_pos ⟨idx2_lt0 y, idx2_lt1 y⟩]
  exact congrArg X (eq_ix2 y)

/-- The dot product of row `r` of `A` with row `o` of `B` over the first `n` columns. -/
def dotUpTo {a b k : ℕ} (A : (⟨2, ![a, k]⟩ : Shape).Idx → EReal) (B : (⟨2, ![b, k]⟩ : Shape).Idx → EReal) (r o n : ℕ) : EReal :=
  ∑ l ∈ Finset.range n, at2 A r l * at2 B o l

/-- Zero plus the first block of columns is the partial dot product over one block. -/
theorem dotUpTo_first {a b k : ℕ} (A : (⟨2, ![a, k]⟩ : Shape).Idx → EReal) (B : (⟨2, ![b, k]⟩ : Shape).Idx → EReal) (r o blk : ℕ) :
    0 + ∑ j : Fin blk, at2 A r (0 * blk + j.val) * at2 B o (0 * blk + j.val) = dotUpTo A B r o ((0 + 1) * blk) :=
  Cert.SumBlocks.sum_range_first_block (fun l => at2 A r l * at2 B o l) blk

/-- The partial dot product over `n` whole blocks plus block `n` is the partial dot product over `n + 1` blocks. -/
theorem dotUpTo_succ {a b k : ℕ} (A : (⟨2, ![a, k]⟩ : Shape).Idx → EReal) (B : (⟨2, ![b, k]⟩ : Shape).Idx → EReal) (r o blk n : ℕ) :
    dotUpTo A B r o (n * blk) + ∑ j : Fin blk, at2 A r (n * blk + j.val) * at2 B o (n * blk + j.val)
      = dotUpTo A B r o ((n + 1) * blk) :=
  Cert.SumBlocks.sum_range_succ_block (fun l => at2 A r l * at2 B o l) blk n

/-- Over all `k` columns it is the whole dot product, entry by entry. -/
theorem dotUpTo_full {a b k : ℕ} (A : (⟨2, ![a, k]⟩ : Shape).Idx → EReal) (B : (⟨2, ![b, k]⟩ : Shape).Idx → EReal)
    (r : Fin a) (o : Fin b) : dotUpTo A B r.val o.val k = ∑ l : Fin k, A (ix2 r l) * B (ix2 o l) := by
  unfold dotUpTo
  rw [← Cert.SumBlocks.sum_fin_eq_range (fun l => at2 A r.val l * at2 B o.val l) k]
  refine Finset.sum_congr rfl fun l _ => ?_
  rw [at2_val, at2_val]

/-- The whole result: the dot product over all columns plus the bias row. -/
def result {a b k : ℕ} (A : (⟨2, ![a, k]⟩ : Shape).Idx → EReal) (B : (⟨2, ![b, k]⟩ : Shape).Idx → EReal)
    (C : (⟨2, ![1, b]⟩ : Shape).Idx → EReal) : (⟨2, ![a, b]⟩ : Shape).Idx → EReal :=
  fun y => dotUpTo A B (y 0).val (y 1).val k + at2 C 0 (y 1).val

/-- At row `r`, column `o`: the sum over every column of the products, plus the bias at `o`. -/
theorem result_apply {a b k : ℕ} (A : (⟨2, ![a, k]⟩ : Shape).Idx → EReal) (B : (⟨2, ![b, k]⟩ : Shape).Idx → EReal)
    (C : (⟨2, ![1, b]⟩ : Shape).Idx → EReal) (r : Fin a) (o : Fin b) :
    result A B C (ix2 r o) = ∑ l : Fin k, A (ix2 r l) * B (ix2 o l) + C (ix2 (0 : Fin 1) o) := by
  show dotUpTo A B r.val o.val k + at2 C 0 o.val = _
  rw [dotUpTo_full, ← at2_val C (0 : Fin 1) o]
  rfl

end Cert.DotSpec

end
-- ==== Proof.Inputs.lean ====
/-
  The three arrays the kernel's windows read, and their blocks.

  Before the region the host code prepares
    * the left matrix: the activations `x` (4 × 2048 × 4096) re-laid as 8192 × 4096 (row `2048 b + s`), then
      converted to bf16 — the identity on the extended reals;
    * the right matrix: the dequantized weight (the codebook gather scaled by the gathered norms, re-laid as
      4096 × 4096), converted to bf16 likewise. The dequantization is the same host code in both programs, so it is
      carried as one function `weight` of the four codebook arguments and never opened;
    * the bias as a 1 × 4096 row.
  At grid point `t` (tile row `t / 16`, tile column `t / 4 mod 4`, K-block `t mod 4`) the left window holds rows
  `1024 (t / 16) …`, columns `1024 (t mod 4) …` of the left matrix, the right window rows `1024 (t / 4 mod 4) …`, columns
  `1024 (t mod 4) …` of the right matrix, and the bias window columns `1024 (t / 4 mod 4) …` of the bias row.
-/
import proofs.«162434_j6751688589355_1_alg».proof.Proof.Gen.KernelIdeal.Frame
import proofs.«162434_j6751688589355_1_alg».proof.Proof.DotSpec
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.Body

open Idealize.ShloMosaic Idealize.ShloMosaic.TcCoe Idealize.SL.Sem Idealize.ShloMosaic.ValueIdx
open Cert.KernelIdeal Cert.KernelIdeal.Gen Cert.DotSpec

section AnyInstance

variable {F : FTy → Type} [FloatOps F]

/-- The dequantized weight, as the host code before the region computes it from the direction codebook `x1`, its
    labels `x2`, the norm levels `x3` and their labels `x4`. -/
def weight (x1 : (⟨S256x16, .f32⟩ : BufTy).Contents (Elt F)) (x2 : (⟨S1048576, .i32⟩ : BufTy).Contents (Elt F))
    (x3 : (⟨S16, .f32⟩ : BufTy).Contents (Elt F)) (x4 : (⟨S1048576, .i32⟩ : BufTy).Contents (Elt F)) :
    (⟨S4096x4096, .f32⟩ : BufTy).Contents (Elt F) :=
  shapeCast _ (mulf (Host.gather gather_S256x16_S1048576x1_S1048576x16_1_0_n_n_0_1_116 x1 (broadcastInDim S1048576x1 ![0] bcast_S1048576_S1048576x1_0 (select (cmpi .slt x2 (broadcastInDim S1048576 ![] bcast_S_S1048576 (constantI S_ 32 0#32))) (addi x2 (broadcastInDim S1048576 ![] bcast_S_S1048576 (constantI S_ 32 256#32))) x2))) (broadcastInDim S1048576x16 ![0, 1] bcast_S1048576x1_S1048576x16_0_1 (broadcastInDim S1048576x1 ![0] bcast_S1048576_S1048576x1_0 (Host.gather gather_S16_S1048576x1_S1048576_n_0_n_n_0_1_1 x3 (broadcastInDim S1048576x1 ![0] bcast_S1048576_S1048576x1_0 (select (cmpi .slt x4 (broadcastInDim S1048576 ![] bcast_S_S1048576 (constantI S_ 32 0#32))) (addi x4 (broadcastInDim S1048576 ![] bcast_S_S1048576 (constantI S_ 32 16#32))) x4)))))) shapeCasts_S1048576x16_S4096x4096

variable (m : (ℓ : Loc nD τ sig) → Buf (Elt F) ℓ)

/-- The left matrix as the region finds it. -/
theorem entry_left (c : Dev nD) : V m c main_v19
    = truncf .bf16 (shapeCast S8192x4096 (m ((c : Thread nD τ).loc main_arg0)) shapeCasts_S4x2048x4096_S8192x4096) bitsLt_bf16_f32 := by
  show StableHlo.after hostOps0 (fun b => m (c, b)) (Proc.devRef .tc main_v19) = _
  after_results
  rfl

set_option maxHeartbeats 2000000 in
/-- The right matrix as the region finds it. -/
theorem entry_right (c : Dev nD) : V m c main_v20
    = truncf .bf16 (weight (m ((c : Thread nD τ).loc main_arg1)) (m ((c : Thread nD τ).loc main_arg2)) (m ((c : Thread nD τ).loc main_arg3)) (m ((c : Thread nD τ).loc main_arg4))) bitsLt_bf16_f32 := by
  show StableHlo.after hostOps0 (fun b => m (c, b)) (Proc.devRef .tc main_v20) = _
  after_results
  rfl

/-- The bias row as the region finds it. -/
theorem entry_bias (c : Dev nD) : V m c main_v21
    = shapeCast S1x4096 (m ((c : Thread nD τ).loc main_arg5)) shapeCasts_S4096_S1x4096 := by
  show StableHlo.after hostOps0 (fun b => m (c, b)) (Proc.devRef .tc main_v21) = _
  after_results
  rfl

end AnyInstance

/-- Where each window's block sits at each grid point: decided over the 128 points. -/
theorem index_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

variable (m : (ℓ : Loc nD τ sig) → Buf (Elt Ideal) ℓ)

/-- The three arrays on the extended reals. -/
def leftArr (c : Dev nD) : (⟨2, ![8192, 4096]⟩ : Shape).Idx → EReal := V m c main_v19
def rightArr (c : Dev nD) : (⟨2, ![4096, 4096]⟩ : Shape).Idx → EReal := V m c main_v20
def biasArr (c : Dev nD) : (⟨2, ![1, 4096]⟩ : Shape).Idx → EReal := V m c main_v21

/-- The left window's block at point `t`, entry `(p, l)`. -/
theorem left_block (c : Dev nD) (t : Fin cfg0.N) (p l : Fin 1024) :
    (iblk m c 0 t : Vec Ideal S1024x1024 .bf16) (ix2 p l)
      = at2 (leftArr m c) (t.val / 16 * 1024 + p.val) (t.val % 4 * 1024 + l.val) := by
  obtain ⟨e0, e1, -⟩ := index_facts t
  unfold iblk
  rw [View.read_apply]
  refine at2_of_idx (leftArr m c) _ _ _ ?_ ?_
  · show win0_0.index t (0 : Fin 2) * 1024 + 1 * p.val = _
    rw [e0]; omega
  · show win0_0.index t (1 : Fin 2) * 1024 + 1 * l.val = _
    rw [e1]; omega

/-- The right window's block at point `t`, entry `(q, l)`. -/
theorem right_block (c : Dev nD) (t : Fin cfg0.N) (q l : Fin 1024) :
    (iblk m c 1 t : Vec Ideal S1024x1024 .bf16) (ix2 q l)
      = at2 (rightArr m c) (t.val / 4 % 4 * 1024 + q.val) (t.val % 4 * 1024 + l.val) := by
  obtain ⟨-, -, e0, e1, -⟩ := index_facts t
  unfold iblk
  rw [View.read_apply]
  refine at2_of_idx (rightArr m c) _ _ _ ?_ ?_
  · show win0_1.index t (0 : Fin 2) * 1024 + 1 * q.val = _
    rw [e0]; omega
  · show win0_1.index t (1 : Fin 2) * 1024 + 1 * l.val = _
    rw [e1]; omega

/-- The bias window's block at point `t`, entry `(0, q)`. -/
theorem bias_block (c : Dev nD) (t : Fin cfg0.N) (q : Fin 1024) :
    (iblk m c 2 t : Vec Ideal S1x1024 .f32) (ix2 (0 : Fin 1) q)
      = at2 (biasArr m c) 0 (t.val / 4 % 4 * 1024 + q.val) := by
  obtain ⟨-, -, -, -, e0, e1, -⟩ := index_facts t
  unfold iblk
  rw [View.read_apply]
  refine at2_of_idx (biasArr m c) _ _ _ ?_ ?_
  · show win0_2.index t (0 : Fin 2) * 1 + 1 * (0 : Fin 1).val = _
    rw [e0]; rfl
  · show win0_2.index t (1 : Fin 2) * 1024 + 1 * q.val = _
    rw [e1]; omega

/-- The left matrix at row `2048 b + s`, column `l`, is the activation at `(b, s, l)`. -/
theorem leftArr_apply (c : Dev nD) (b : Fin 4) (s : Fin 2048) (l : Fin 4096) :
    leftArr m c (ix2 (⟨b.val * 2048 + s.val, by omega⟩ : Fin 8192) l) = m ((c : Thread nD τ).loc main_arg0) (ix3 b s l) := by
  unfold leftArr
  rw [entry_left]
  show shapeCast S8192x4096 (m ((c : Thread nD τ).loc main_arg0)) shapeCasts_S4x2048x4096_S8192x4096 _ = _
  exact shapeCast_apply _ _ _ _ (by
    show (S4x2048x4096.rowMajor (ix3 b s l)).val = (S8192x4096.rowMajor (ix2 (⟨b.val * 2048 + s.val, by omega⟩ : Fin 8192) l)).val
    rw [Shape.rowMajor_val_three, Shape.rowMajor_val_two]
    rfl)

/-- The right matrix is the dequantized weight. -/
theorem rightArr_eq (c : Dev nD) : rightArr m c
    = weight (F := Ideal) (m ((c : Thread nD τ).loc main_arg1)) (m ((c : Thread nD τ).loc main_arg2)) (m ((c : Thread nD τ).loc main_arg3)) (m ((c : Thread nD τ).loc main_arg4)) := by
  unfold rightArr
  rw [entry_right]
  rfl

/-- The bias row at column `o` is the bias at `o`. -/
theorem biasArr_apply (c : Dev nD) (o : Fin 4096) :
    biasArr m c (ix2 (0 : Fin 1) o) = m ((c : Thread nD τ).loc main_arg5) (ix1 o) := by
  unfold biasArr
  rw [entry_bias]
  exact shapeCast_a_1a_apply _ _ (0 : Fin 1) o

end Cert.KernelIdeal.Body

end
-- ==== Proof.Payloads.lean ====
/-
  The three values the kernel body stores, read at an index of the 1024 × 1024 block, on the extended reals.

  * The reset stores zero everywhere.
  * The accumulation stores, at row `p` and column `q`, what the scratch held there plus the dot product of row `p`
    of the left block with row `q` of the right block (both blocks are contracted along their second axis, so the
    right operand is read transposed): `acc[p, q] + Σ_l a[p, l] · b[q, l]`. The matrix unit starts from a zero
    accumulator, which adds nothing.
  * The last step stores the scratch plus the bias row broadcast down the rows: `acc[p, q] + bias[0, q]`.

  A change of float format is the identity on the extended reals, so the bf16 operands are just their values.
-/
import proofs.«162434_j6751688589355_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-- The matrix unit's dimension numbers of this kernel: both operands contracted along axis 1. -/
abbrev DD := dot_S1024x1024_S1024x1024_S1024x1024_1_1_0_0_n_n

/-- The reset's payload is zero at every index. -/
theorem reset_apply (y : S1024x1024.Idx) : k0_pay1 (F := Ideal) y = 0 := by
  unfold k0_pay1
  simp only [shapeCast_self]
  exact Ideal.ofBits_zero_f32

theorem lhs_row (j : S1024x1024.Idx) (k : DD.contr.Idx) : (DD.lhsIdx j k 0).val = (j 0).val := by
  unfold DotDims.lhsIdx
  rw [dif_neg (show ¬(0 : Fin S1024x1024.rank) ∈ DD.lhsBatch by decide), dif_pos (show (0 : Fin S1024x1024.rank) ∈ DD.lhsNonContracting by decide)]
  rfl

theorem rhs_row (j : S1024x1024.Idx) (k : DD.contr.Idx) : (DD.rhsIdx j k 0).val = (j 1).val := by
  unfold DotDims.rhsIdx
  rw [dif_neg (show ¬(0 : Fin S1024x1024.rank) ∈ DD.rhsBatch by decide), dif_pos (show (0 : Fin S1024x1024.rank) ∈ DD.rhsNonContracting by decide)]
  rfl

/-- The block product from a zero accumulator, at `(p, q)`: row `p` of the left block against row `q` of the right. -/
theorem dot_apply (a b : FVec Ideal S1024x1024 .bf16) (p q : Fin 1024) :
    FloatOps.matmul DD none a b (constant (F := Ideal) S1024x1024 .f32 0x00000000#32) (ix2 p q)
      = ∑ l : Fin 1024, a (ix2 p l) * b (ix2 q l) := by
  rw [Ideal.matmul_constant_zero_apply, ← Equiv.sum_comp (contrEquiv1 DD 1024 rfl rfl).symm]
  refine Finset.sum_congr rfl fun l _ => ?_
  have hk := contrEquiv1_symm_val DD 1024 rfl rfl l
  have el : DD.lhsIdx (ix2 p q) ((contrEquiv1 DD 1024 rfl rfl).symm l) = ix2 p l := funext fun ax => Fin.ext (by
    match ax with
    | ⟨0, _⟩ => exact lhs_row _ _
    | ⟨1, _⟩ => exact (DD.lhsIdx_val_of_single rfl _ _).trans hk)
  have er : DD.rhsIdx (ix2 p q) ((contrEquiv1 DD 1024 rfl rfl).symm l) = ix2 q l := funext fun ax => Fin.ext (by
    match ax with
    | ⟨0, _⟩ => exact rhs_row _ _
    | ⟨1, _⟩ => exact (DD.rhsIdx_val_of_single rfl _ _).trans hk)
  rw [el, er]

/-- The accumulation's payload at `(p, q)`. -/
theorem accumulate_apply (acc : FVec Ideal S1024x1024 .f32) (a b : FVec Ideal S1024x1024 .bf16) (p q : Fin 1024) :
    k0_pay2 (F := Ideal) acc a b (ix2 p q) = acc (ix2 p q) + ∑ l : Fin 1024, a (ix2 p l) * b (ix2 q l) := by
  unfold k0_pay2
  simp only [shapeCast_self]
  exact congrArg (acc (ix2 p q) + ·) (dot_apply a b p q)

/-- The last step's payload at `(p, q)`. -/
theorem bias_apply (acc : FVec Ideal S1024x1024 .f32) (bias : FVec Ideal S1x1024 .f32) (p q : Fin 1024) :
    k0_pay3 (F := Ideal) acc bias (ix2 p q) = acc (ix2 p q) + bias (ix2 (0 : Fin 1) q) := by
  unfold k0_pay3
  simp only [shapeCast_self]
  exact congrArg (acc (ix2 p q) + ·) (broadcastTo_1b_ab_apply bias _ p q)

end Cert.KernelIdeal.Body

end
-- ==== Proof.Steps.lean ====
/-
  One step of the accumulation, at an index, against the specification.

  Fix the left matrix `A`, the right matrix `B`, and a 1024 × 1024 output tile whose rows start at `r0` and whose
  columns start at `o0`. If the left block loaded at K-block `n` is rows `r0 …` and columns `1024 n …` of `A`, and the
  right block is rows `o0 …` and columns `1024 n …` of `B`, then
    * the first step (scratch reset to zero, then accumulated) leaves the partial dot products over one K-block;
    * a later step turns the partial dot products over `n` K-blocks into those over `n + 1`;
    * the closing step adds the bias row to the scratch.
-/
import proofs.«162434_j6751688589355_1_alg».proof.Proof.Payloads
import proofs.«162434_j6751688589355_1_alg».proof.Proof.DotSpec

noncomputable section

namespace Cert.KernelIdeal.Body

open Idealize.ShloMosaic Idealize.ShloMosaic.ValueIdx Cert.KernelIdeal Cert.KernelIdeal.Gen Cert.DotSpec

/-- The first K-block: zero plus the first block product. -/
theorem first_step {ra rb k : ℕ} (A : (⟨2, ![ra, k]⟩ : Shape).Idx → EReal) (B : (⟨2, ![rb, k]⟩ : Shape).Idx → EReal)
    (a b : FVec Ideal S1024x1024 .bf16) (r0 o0 : ℕ)
    (ha : ∀ p l : Fin 1024, a (ix2 p l) = at2 A (r0 + p.val) (0 * 1024 + l.val))
    (hb : ∀ q l : Fin 1024, b (ix2 q l) = at2 B (o0 + q.val) (0 * 1024 + l.val)) (p q : Fin 1024) :
    k0_pay2 (F := Ideal) (k0_pay1 (F := Ideal)) a b (ix2 p q) = dotUpTo A B (r0 + p.val) (o0 + q.val) ((0 + 1) * 1024) := by
  rw [accumulate_apply, reset_apply, ← dotUpTo_first]
  exact congrArg (0 + ·) (Finset.sum_congr rfl fun l _ => by rw [ha p l, hb q l])

/-- A later K-block: what `n` blocks gave plus block `n`. -/
theorem next_step {ra rb k : ℕ} (A : (⟨2, ![ra, k]⟩ : Shape).Idx → EReal) (B : (⟨2, ![rb, k]⟩ : Shape).Idx → EReal)
    (acc : FVec Ideal S1024x1024 .f32) (a b : FVec Ideal S1024x1024 .bf16) (r0 o0 n : ℕ)
    (hacc : ∀ p q : Fin 1024, acc (ix2 p q) = dotUpTo A B (r0 + p.val) (o0 + q.val) (n * 1024))
    (ha : ∀ p l : Fin 1024, a (ix2 p l) = at2 A (r0 + p.val) (n * 1024 + l.val))
    (hb : ∀ q l : Fin 1024, b (ix2 q l) = at2 B (o0 + q.val) (n * 1024 + l.val)) (p q : Fin 1024) :
    k0_pay2 (F := Ideal) acc a b (ix2 p q) = dotUpTo A B (r0 + p.val) (o0 + q.val) ((n + 1) * 1024) := by
  rw [accumulate_apply, hacc p q, ← dotUpTo_succ]
  exact congrArg (dotUpTo A B (r0 + p.val) (o0 + q.val) (n * 1024) + ·) (Finset.sum_congr rfl fun l _ => by rw [ha p l, hb q l])

/-- The closing step: the finished dot products plus the bias row give the result's tile. -/
theorem closing_step {ra rb : ℕ} (A : (⟨2, ![ra, 4096]⟩ : Shape).Idx → EReal) (B : (⟨2, ![rb, 4096]⟩ : Shape).Idx → EReal)
    (C : (⟨2, ![1, rb]⟩ : Shape).Idx → EReal)
    (acc : FVec Ideal S1024x1024 .f32) (bias : FVec Ideal S1x1024 .f32) (r0 o0 : ℕ)
    (hacc : ∀ p q : Fin 1024, acc (ix2 p q) = dotUpTo A B (r0 + p.val) (o0 + q.val) ((3 + 1) * 1024))
    (hbias : ∀ q : Fin 1024, bias (ix2 (0 : Fin 1) q) = at2 C 0 (o0 + q.val)) (p q : Fin 1024) :
    k0_pay3 (F := Ideal) acc bias (ix2 p q) = dotUpTo A B (r0 + p.val) (o0 + q.val) 4096 + at2 C 0 (o0 + q.val) := by
  rw [bias_apply, hacc p q, hbias q]

end Cert.KernelIdeal.Body

end
-- ==== Proof.Invariant.lean ====
/-
  What the scratch and the output tile hold, point by point, against the specification.

  Point `n` of the grid works on the output tile whose rows start at `1024 (n / 16)` and whose columns start at
  `1024 (n / 4 mod 4)`, at K-block `n mod 4`. By induction on `n`: after point `n` the scratch holds, at `(p, q)`, the
  dot product of row `1024 (n / 16) + p` of the left matrix with row `1024 (n / 4 mod 4) + q` of the right matrix over the
  first `(n mod 4 + 1)` K-blocks of columns. (A point that is not a tile's first continues the point before it, which
  is on the same tile one K-block earlier.) So after a tile's last K-block the scratch holds the whole dot products,
  and the output tile — the scratch plus the bias row — is the specification's tile.
-/
import proofs.«162434_j6751688589355_1_alg».proof.Proof.Recurrence
import proofs.«162434_j6751688589355_1_alg».proof.Proof.Inputs
import proofs.«162434_j6751688589355_1_alg».proof.Proof.Steps

noncomputable section

namespace Cert.KernelIdeal.Body

open Idealize.ShloMosaic Idealize.ShloMosaic.TcCoe Idealize.SL.Sem Idealize.ShloMosaic.ValueIdx
open Cert.KernelIdeal Cert.KernelIdeal.Gen Cert.DotSpec

variable (m : (ℓ : Loc nD τ sig) → Buf (Elt Ideal) ℓ)

/-- The scratch after point `n`: the partial dot products over the tile's first `n mod 4 + 1` K-blocks. -/
theorem scratch_after (c : Dev nD) : ∀ (n : ℕ) (h : n < cfg0.N) (p q : Fin 1024),
    ((outsAt0 m c n h).2 : Vec Ideal S1024x1024 .f32) (ix2 p q)
      = dotUpTo (leftArr m c) (rightArr m c) (n / 16 * 1024 + p.val) (n / 4 % 4 * 1024 + q.val) ((n % 4 + 1) * 1024) := by
  intro n
  induction n with
  | zero =>
    intro h p q
    rw [scratch_first m c ⟨0, h⟩ rfl]
    exact first_step (leftArr m c) (rightArr m c) (iblk m c 0 ⟨0, h⟩) (iblk m c 1 ⟨0, h⟩) (0 / 16 * 1024) (0 / 4 % 4 * 1024)
      (fun p l => left_block m c ⟨0, h⟩ p l) (fun q l => right_block m c ⟨0, h⟩ q l) p q
  | succ n ih =>
    intro h p q
    by_cases h0 : (n + 1) % 4 = 0
    · rw [scratch_first m c ⟨n + 1, h⟩ h0]
      have e := first_step (leftArr m c) (rightArr m c) (iblk m c 0 ⟨n + 1, h⟩) (iblk m c 1 ⟨n + 1, h⟩)
        ((n + 1) / 16 * 1024) ((n + 1) / 4 % 4 * 1024)
        (fun p l => by have := left_block m c ⟨n + 1, h⟩ p l; dsimp only at this; rwa [h0] at this)
        (fun q l => by have := right_block m c ⟨n + 1, h⟩ q l; dsimp only at this; rwa [h0] at this) p q
      rw [h0]
      exact e
    · have hn : n < cfg0.N := Nat.lt_of_succ_lt h
      have e1 : n / 16 = (n + 1) / 16 := by omega
      have e2 : n / 4 % 4 = (n + 1) / 4 % 4 := by omega
      have e3 : n % 4 + 1 = (n + 1) % 4 := by omega
      rw [scratch_later m c ⟨n + 1, h⟩ h0]
      exact next_step (leftArr m c) (rightArr m c) (outsAt0 m c n hn).2 (iblk m c 0 ⟨n + 1, h⟩) (iblk m c 1 ⟨n + 1, h⟩)
        ((n + 1) / 16 * 1024) ((n + 1) / 4 % 4 * 1024) ((n + 1) % 4)
        (fun p q => by have := ih hn p q; rwa [e1, e2, e3] at this)
        (fun p l => left_block m c ⟨n + 1, h⟩ p l) (fun q l => right_block m c ⟨n + 1, h⟩ q l) p q

/-- The output tile after a tile's last K-block: the whole dot products plus the bias row. -/
theorem tile_after (c : Dev nD) (t : Fin cfg0.N) (h1 : t.val % 4 = 3) (p q : Fin 1024) :
    ((outsAt0 m c t.val t.isLt).1 : Vec Ideal S1024x1024 .f32) (ix2 p q)
      = dotUpTo (leftArr m c) (rightArr m c) (t.val / 16 * 1024 + p.val) (t.val / 4 % 4 * 1024 + q.val) 4096
        + at2 (biasArr m c) 0 (t.val / 4 % 4 * 1024 + q.val) := by
  have h0 : ¬t.val % 4 = 0 := by omega
  rw [tile_last m c t h1, ← scratch_later m c t h0]
  exact closing_step (leftArr m c) (rightArr m c) (biasArr m c) (outsAt0 m c t.val t.isLt).2 (iblk m c 2 t)
    (t.val / 16 * 1024) (t.val / 4 % 4 * 1024)
    (fun p q => by have := scratch_after m c t.val t.isLt p q; rwa [h1] at this)
    (fun q => bias_block m c t q) p q

end Cert.KernelIdeal.Body

end
-- ==== Proof.Blocks.lean ====
/-
  From tiles to the array: after the region the kernel's 8192 × 4096 result array is the specification's result of
  the left matrix, the right matrix and the bias row.

  The output window is written back exactly at each tile's last K-block (`t mod 4 = 3`), and what is written there
  is the tile of the specification's result at rows `1024 (t / 16) …`, columns `1024 (t / 4 mod 4) …`. Every index
  `(r, o)` of the array lies in the tile written at point `16 (r / 1024) + 4 (o / 1024) + 3`, so the 32 written tiles
  cover the array.
-/
import proofs.«162434_j6751688589355_1_alg».proof.Proof.Invariant

noncomputable section

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.DotSpec

variable (m : (ℓ : Loc nD τ sig) → Buf (Elt Ideal) ℓ)

/-- The array the region leaves: the specification's result of the three arrays the windows read. -/
def tiled (c : Dev nD) : Buf (Elt Ideal) ((c : Thread nD τ).loc main_v22) :=
  result (leftArr m c) (rightArr m c) (biasArr m c)

/-- What a flushing point writes back is its tile of that array. -/
theorem flushed_eq (c : Dev nD) (t : Fin cfg0.N) (hf : (cfg0.win 3).flush t = true) :
    (dats m 0 c).flushed 3 t = ((cfg0.win 3).blk t).view.read (Elt Ideal) (tiled m c) := by
  have h3 : t.val % 4 = 3 := (flush0_3 t).mp hf
  obtain ⟨-, -, -, -, -, -, e0, e1⟩ := index_facts t
  show (cfg0.win 3).cut (grid0.coords t) ((dats m 0 c).after 3 t) = _
  rw [after0_3]
  funext (y : S1024x1024.Idx)
  obtain ⟨p, q, rfl⟩ : ∃ p q : Fin 1024, y = ix2 p q := ⟨y 0, y 1, eq_ix2 y⟩
  have r0 : ((((cfg0.win 3).blk t).view.emb (ix2 p q)) 0).val = t.val / 16 * 1024 + p.val := by
    show win0_3.index t (0 : Fin 2) * 1024 + 1 * p.val = _
    rw [e0]; omega
  have r1 : ((((cfg0.win 3).blk t).view.emb (ix2 p q)) 1).val = t.val / 4 % 4 * 1024 + q.val := by
    show win0_3.index t (1 : Fin 2) * 1024 + 1 * q.val = _
    rw [e1]; omega
  show ((outsAt0 m c t.val t.isLt).1 : Vec Ideal S1024x1024 .f32) (ix2 p q)
    = dotUpTo (leftArr m c) (rightArr m c) ((((cfg0.win 3).blk t).view.emb (ix2 p q)) 0).val ((((cfg0.win 3).blk t).view.emb (ix2 p q)) 1).val 4096
      + at2 (biasArr m c) 0 ((((cfg0.win 3).blk t).view.emb (ix2 p q)) 1).val
  rw [r0, r1]
  exact tile_after m c t h3 p q

/-- An index of the array is in point `t`'s tile iff each coordinate is in the tile's range on its axis. -/
theorem mem_tile (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v22).slice (win0_3.rect t)).set ↔ _
  rw [View.set_slice_whole, Rect.mem_set_unit]
  exact Iff.rfl

/-- Every index of the array is in the tile some flushing point writes. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  refine ⟨⟨(i 0).val / 1024 * 16 + (i 1).val / 1024 * 4 + 3, by rw [hN]; omega⟩, ?_, ?_⟩
  · exact (flush0_3 _).mpr (by show ((i 0).val / 1024 * 16 + (i 1).val / 1024 * 4 + 3) % 4 = 3; omega)
  · obtain ⟨-, -, -, -, -, -, e0, e1⟩ := index_facts ⟨(i 0).val / 1024 * 16 + (i 1).val / 1024 * 4 + 3, by rw [hN]; omega⟩
    rw [mem_tile]
    intro a
    match a with
    | ⟨0, _⟩ =>
      show win0_3.index _ (0 : Fin 2) * 1024 ≤ (i 0).val ∧ (i 0).val < win0_3.index _ (0 : Fin 2) * 1024 + 1024
      rw [e0]; dsimp only; omega
    | ⟨1, _⟩ =>
      show win0_3.index _ (1 : Fin 2) * 1024 ≤ (i 1).val ∧ (i 1).val < win0_3.index _ (1 : Fin 2) * 1024 + 1024
      rw [e1]; dsimp only; omega

/-- The result array after the region. -/
theorem final (c : Dev nD) : (dats m 0 c).arrAt 3 cfg0.N = tiled m c :=
  (dats m 0 c).arrAt_eq_of_cover 3 (tiled m c) (flushed_eq m c) covered

end Cert.KernelIdeal.Body

end
-- ==== Proof.KernelRun.lean ====
/-
  The idealized kernel's whole run, with its result named.

  After the region the host code re-lays the 8192 × 4096 array as 4 × 2048 × 4096, and that is the program's result. So
  every weakly fair execution terminates with the result at the re-laid specification result of the three arrays the
  windows read, and with the six arguments as they were.
-/
import proofs.«162434_j6751688589355_1_alg».proof.Proof.Blocks

noncomputable section

namespace Cert.KernelIdeal.Body

open Idealize.ShloMosaic Idealize.ShloMosaic.TcCoe Idealize.SL.Sem Idealize.ShloMosaic.ValueIdx
open Idealize.ShloMosaic.Pipeline (Dat)
open Cert.KernelIdeal Cert.KernelIdeal.Gen Cert.DotSpec

variable (m : (ℓ : Loc nD τ sig) → Buf (Elt Ideal) ℓ) (ρ : Dev nD → PrngReg)

/-- The program's result: the region's array re-laid as 4 × 2048 × 4096. -/
def kernelResult (c : Dev nD) : Buf (Elt Ideal) ((c : Thread nD τ).loc main_v23) :=
  shapeCast S4x2048x4096 (tiled m c) shapeCasts_S8192x4096_S4x2048x4096

/-- The host code after the region leaves the result buffer at that re-laid array. -/
theorem tail_eq (c : Dev nD) :
    Pipeline.afterTail₀ cfgs (dats m) 0 (V0 m) [hostOps1] c main_v23 = kernelResult m c := by
  unfold Pipeline.afterTail₀
  show StableHlo.after hostOps1 _ (Proc.devRef .tc main_v23) = _
  after_results
  have e : Pipeline.withArrays (cfgs 0).spec c (V0 m c) (fun w => (dats m 0 c).arrAt w (cfgs 0).N) (Proc.devRef .tc main_v22) = tiled m c :=
    (Pipeline.withArrays_arr spec0 launch0.win.arr_inj c _ _ 3).trans (final m c)
  rw [e]
  rfl

/-- The run: the result buffer at `kernelResult`, the arguments unchanged. -/
theorem run : θ_run defs (onTc (τ := τ) (main (F := Ideal))) ⟨m, fun _ => 0, ρ⟩ (fun r => ∀ c : Dev nD,
      r.2.mem ((c.tc : Thread nD τ).loc main_v23) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Body

end
-- ==== Proof.RefValue.lean ====
/-
  The reference, at an index of its result, on the extended reals.

  The reference contracts the activations' last axis with the weight's last axis and adds the bias broadcast over the
  first two axes. So at `(b, s, o)` it is
      Σ_k x[b, s, k] · W[o, k] + bias[o],
  where `W` is the dequantized weight (the reference's stage before the contraction, kept closed).
-/
import proofs.«162434_j6751688589355_1_alg».proof.Proof.Gen.ReferenceIdeal.Read

noncomputable section

namespace Cert.ReferenceIdeal.RefValue

open Idealize.ShloMosaic Idealize.ShloMosaic.ValueIdx Cert.ReferenceIdeal Cert.ReferenceIdeal.Read

/-- The reference's result at `(b, s, o)`. -/
theorem reference_apply (x0 : (⟨S4x2048x4096, .f32⟩ : BufTy).Contents (Elt Ideal)) (x1 : (⟨S256x16, .f32⟩ : BufTy).Contents (Elt Ideal)) (x2 : (⟨S1048576, .i32⟩ : BufTy).Contents (Elt Ideal)) (x3 : (⟨S16, .f32⟩ : BufTy).Contents (Elt Ideal)) (x4 : (⟨S1048576, .i32⟩ : BufTy).Contents (Elt Ideal)) (x5 : (⟨S4096, .f32⟩ : BufTy).Contents (Elt Ideal))
    (b : Fin 4) (s : Fin 2048) (o : Fin 4096) :
    val_main_v21 (F := Ideal) x0 x1 x2 x3 x4 x5 (ix3 b s o)
      = ∑ k : Fin 4096, x0 (ix3 b s k) * val_main_v17 (F := Ideal) x1 x2 x3 x4 (ix2 o k) + x5 (ix1 o) := by
  have el : ∀ k : Fin 4096, lidx_main_v18 (ix3 b s o) k = ix3 b s k := fun k => funext fun a => Fin.ext (by
    match a with
    | ⟨0, _⟩ => rfl
    | ⟨1, _⟩ => rfl
    | ⟨2, _⟩ => rfl)
  have er : ∀ k : Fin 4096, ridx_main_v18 (ix3 b s o) k = ix2 o k := fun k => funext fun a => Fin.ext (by
    match a with
    | ⟨0, _⟩ => rfl
    | ⟨1, _⟩ => rfl)
  have eb : idx_main_v19 (idx_main_v20 (ix3 b s o)) = ix1 o := funext fun a => Fin.ext (by
    match a with
    | ⟨0, _⟩ => rfl)
  rw [val_main_v21_apply, val_main_v18_apply, val_main_v20_apply, val_main_v19_apply, eb]
  simp only [el, er]
  rfl

end Cert.ReferenceIdeal.RefValue

end
-- ==== Proof.Bridge.lean ====
/-
  The two programs compute one function of the arguments.

  The kernel's final result is its 8192 × 4096 array re-laid as 4 × 2048 × 4096: entry `(b, s, o)` is entry
  `(2048 b + s, o)` of the array, which is the dot product of row `2048 b + s` of the left matrix — the activation row
  `x[b, s, ·]` — with row `o` of the dequantized weight, plus the bias at `o`. The reference's result at `(b, s, o)` is
  the same sum. The dequantized weight is the same host code in both programs (the same gathers, product and
  re-layout of the same four arguments), carried on both sides as one closed function.
-/
import proofs.«162434_j6751688589355_1_alg».proof.Proof.KernelRun
import proofs.«162434_j6751688589355_1_alg».proof.Proof.RefValue

noncomputable section

namespace Cert.Bridge

open Idealize.ShloMosaic Idealize.ShloMosaic.TcCoe Idealize.SL.Sem Idealize.ShloMosaic.ValueIdx
open Cert.DotSpec

/-- The dequantized weight is one function of the codebook arguments in both programs. -/
theorem weight_eq (x1 : (⟨Cert.KernelIdeal.S256x16, .f32⟩ : BufTy).Contents (Elt Ideal)) (x2 : (⟨Cert.KernelIdeal.S1048576, .i32⟩ : BufTy).Contents (Elt Ideal))
    (x3 : (⟨Cert.KernelIdeal.S16, .f32⟩ : BufTy).Contents (Elt Ideal)) (x4 : (⟨Cert.KernelIdeal.S1048576, .i32⟩ : BufTy).Contents (Elt Ideal)) :
    Cert.KernelIdeal.Body.weight (F := Ideal) x1 x2 x3 x4 = Cert.ReferenceIdeal.Read.val_main_v17 (F := Ideal) x1 x2 x3 x4 := rfl

/-- The kernel's result is the reference's stage-by-stage value of the kernel's own arguments. -/
theorem result_eq (m : (ℓ : Loc Cert.KernelIdeal.nD Cert.KernelIdeal.τ Cert.KernelIdeal.sig) → Buf (Elt Ideal) ℓ) (c : Dev Cert.KernelIdeal.nD) :
    Cert.KernelIdeal.Body.kernelResult m c
      = Cert.ReferenceIdeal.Read.val_main_v21 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  funext (i : (⟨3, ![4, 2048, 4096]⟩ : Shape).Idx)
  obtain ⟨b, s, o, rfl⟩ : ∃ (b : Fin 4) (s : Fin 2048) (o : Fin 4096), i = ix3 b s o := ⟨i 0, i 1, i 2, eq_ix3 i⟩
  rw [Cert.ReferenceIdeal.RefValue.reference_apply]
  unfold Cert.KernelIdeal.Body.kernelResult
  rw [shapeCast_apply (Cert.KernelIdeal.Body.tiled m c) Cert.KernelIdeal.Facts₀.shapeCasts_S8192x4096_S4x2048x4096 (ix3 b s o)
    (ix2 (⟨b.val * 2048 + s.val, by omega⟩ : Fin 8192) o) (by
      show (Cert.KernelIdeal.S8192x4096.rowMajor (ix2 (⟨b.val * 2048 + s.val, by omega⟩ : Fin 8192) o)).val
        = (Cert.KernelIdeal.S4x2048x4096.rowMajor (ix3 b s o)).val
      rw [Shape.rowMajor_val_three, Shape.rowMajor_val_two]
      rfl)]
  unfold Cert.KernelIdeal.Body.tiled
  rw [result_apply, Cert.KernelIdeal.Body.biasArr_apply, Cert.KernelIdeal.Body.rightArr_eq, weight_eq]
  exact congrArg (· + _) (Finset.sum_congr rfl fun l _ => by rw [Cert.KernelIdeal.Body.leftArr_apply])

end Cert.Bridge

end
-- ==== Proof.lean ====
/-
  A quantized linear layer: `y = x · Wᵀ + bias`, with `W` (4096 × 4096) dequantized from a codebook — each block of
  sixteen weights is a gathered unit direction scaled by a gathered norm level — and `x` of shape 4 × 2048 × 4096.

  The kernel dequantizes on the host exactly as the reference does, re-lays `x` as 8192 × 4096, and computes the
  product in 1024 × 1024 tiles over an 8 × 4 × 4 grid whose last axis walks the four K-blocks of a tile: a scratch tile
  is reset to zero at the first K-block, each K-block adds its block product, and at the last K-block the scratch
  plus the bias row is written out; the result is re-laid as 4 × 2048 × 4096. The reference takes the whole dot
  product at once and adds the bias.

  On the extended reals a change of float format is the identity and a matrix product from a zero accumulator is the
  plain sum of products, so the kernel's entry `(b, s, o)` is
      ((((0 + D₀) + D₁) + D₂) + D₃) + bias[o],   D_n = Σ_{l < 1024} x[b, s, 1024 n + l] · W[o, 1024 n + l],
  and the reference's is `Σ_{k < 4096} x[b, s, k] · W[o, k] + bias[o]`. The two agree because a sum over 4096 columns
  is the sum over its four consecutive blocks of 1024, taken in order: only commutativity and associativity of
  addition, which hold for infinite entries too, so finiteness of the inputs is never used.

  The modules: SumBlocks (a range sum cut into blocks), DotSpec (the specification and its block-by-block partial
  sums), Payloads (the body's three stored values at an index), Pieces and Recurrence (what each grid point leaves, from
  the point before), Inputs (the arrays the windows read and their blocks), Steps and Invariant (the partial sums, by
  induction on the grid point), Blocks (the written tiles cover the array), KernelRun (the host re-layout and the run),
  RefValue (the reference at an index), Bridge (one function). The ideal pass rewrote nothing, so the kernel's
  idealization is the kernel's own text and that conjunct is trivial.
-/
import proofs.«162434_j6751688589355_1_alg».proof.Defs
import proofs.«162434_j6751688589355_1_alg».proof.Proof.Gen.Kernel
import proofs.«162434_j6751688589355_1_alg».proof.Proof.Gen.Kernel.Skeleton
import proofs.«162434_j6751688589355_1_alg».proof.Proof.Gen.Kernel.Launch
import proofs.«162434_j6751688589355_1_alg».proof.Proof.Gen.Kernel.Points
import proofs.«162434_j6751688589355_1_alg».proof.Proof.Gen.Kernel.Frame
import proofs.«162434_j6751688589355_1_alg».proof.Proof.Gen.KernelIdeal
import proofs.«162434_j6751688589355_1_alg».proof.Proof.Gen.KernelIdeal.Skeleton
import proofs.«162434_j6751688589355_1_alg».proof.Proof.Gen.KernelIdeal.Launch
import proofs.«162434_j6751688589355_1_alg».proof.Proof.Gen.KernelIdeal.Points
import proofs.«162434_j6751688589355_1_alg».proof.Proof.Gen.KernelIdeal.Frame
import proofs.«162434_j6751688589355_1_alg».proof.Proof.Gen.ReferenceIdeal
import proofs.«162434_j6751688589355_1_alg».proof.Proof.Gen.ReferenceIdeal.Run
import proofs.«162434_j6751688589355_1_alg».proof.Proof.Gen.ReferenceIdeal.Read
import proofs.«162434_j6751688589355_1_alg».proof.Proof.Gen.Pre_finite_inputs
import proofs.«162434_j6751688589355_1_alg».proof.Proof.Bridge
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From arguments that agree, both programs end with the same result: the kernel's is its re-laid tiled array, the
    reference's its last stage, and the two are one function of the arguments. -/
theorem algebraic : Cert.algebraic_KernelIdeal_ReferenceIdeal := by
  intro m ρ m' ρ' _ hagree
  refine ⟨fun c => Cert.KernelIdeal.Body.kernelResult m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2.1, (hagree c).2.2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
